-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x512 : Shape := ⟨2, ![1024, 512]⟩
abbrev S1024x1 : Shape := ⟨2, ![1024, 1]⟩
abbrev S1024x1024 : Shape := ⟨2, ![1024, 1024]⟩
abbrev S1x1024 : Shape := ⟨2, ![1, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S8192x512, .f32⟩
  | .local _ .vmem, ⟨3, _⟩ => ⟨S1024x1, .f32⟩
  | .local _ .vmem, ⟨4, _⟩ => ⟨S1024x1, .f32⟩
  | .local _ .vmem, ⟨5, _⟩ => ⟨S1x8192, .f32⟩
  | .local _ .vmem, ⟨6, _⟩ => ⟨S1024x1024, .f32⟩
  | .local _ .vmem, ⟨7, _⟩ => ⟨S1024x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def k0_off2 (i : grid0.Coords) : Fin 2 → Nat :=
  let c0_0 : Index := 0#32
  let arg1 : BitVec 32 := BitVec.ofNat 32 (i 1).val
  let c1024_i32 : BitVec 32 := 1024#32
  let v0 : BitVec 32 := Scalar.muli arg1 c1024_i32
  let v1 : BitVec 32 := v0
  let v4 : Index := Scalar.indexCast v1
  ![0, v4.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  shapeCasts_S8192x1_S1x8192 : S8192x1.ShapeCasts S1x8192
  h_S1024x512 : 0 < S1024x512.numel
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x512.size a ≤ S8192x512.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x512.size a ≤ S8192x512.size a
  hwx0_1 : ∀ i : grid0.Coords, EltTy.bits .f32 = 32 ∨ (Rect.block (s := S8192x512) S8192x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.RbfSpec.lean ====
/-
  The radial-basis-function matrix on the extended reals. For matrices X and Y with 8192 rows of 512 entries, write
  n(X, r) for the squared norm of row r of X (the sum over k of X(r, k) * X(r, k), added to the zero both programs
  start the sum from). Entry (r, s) of the result is written in two ways:

    kernel's way     exp ( max ( n(X, r) + n(Y, s) + sum_k (X(r, k) * (-2)) * Y(s, k) , 0 ) * (-1) )
    reference's way  exp ( ( - max ( n(X, r) + n(Y, s) - 2 * sum_k X(r, k) * Y(s, k) , 0 ) ) / 1 )

  They agree when every entry of X and Y is a real number: then the factor -2 may be taken out of the sum
  (sum_k (x_k * (-2)) * y_k = -(2 * sum_k x_k * y_k), which is false in general on the extended reals, where a sum
  may meet +inf and -inf), adding a negation is subtracting, multiplying by -1 is negating and dividing by 1
  changes nothing. The last three hold for every extended real; only the first uses that the entries are real.
-/
import Idealize.ShloMosaic.PureOps.Ideal
import Idealize.ShloMosaic.Lib.ValueIdx

noncomputable section

open scoped BigOperators

namespace Cert.Rbf

open Idealize.ShloMosaic Idealize.ShloMosaic.ValueIdx

/-- A matrix of 8192 rows of 512 extended reals. -/
abbrev Rows := (⟨2, ![8192, 512]⟩ : Shape).Idx → EReal

/-! ## The five float literals the two programs spell -/

theorem word_zero : Ideal.ofBits .f32 0x00000000#32 = 0 := by
  simp [Ideal.ofBits, Ideal.ieee]
theorem word_one : Ideal.ofBits .f32 0x3F800000#32 = ((1 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_neg_one : Ideal.ofBits .f32 0xBF800000#32 = ((-1 : ℝ) : EReal) := by
  simp [Ideal.ofBits, Ideal.ieee, -EReal.coe_mul]; norm_num
theorem word_neg_two : Ideal.ofBits .f32 0xC0000000#32 = ((-2 : ℝ) : EReal) := by
  simp [Ideal.ofBits, Ideal.ieee, -EReal.coe_mul]; norm_num

/-! ## The two spellings of an entry -/

/-- The squared norm of row r, summed from the zero word as both programs do. -/
def sqnorm (X : Rows) (r : Fin 8192) : EReal :=
  Ideal.ofBits .f32 0x00000000#32 + ∑ k : Fin 512, X (ix2 r k) * X (ix2 r k)

/-- Entry (r, s) as the kernel computes it. -/
def entry (X Y : Rows) (r s : Fin 8192) : EReal :=
  Ideal.exp (max (sqnorm X r + sqnorm Y s
        + ∑ k : Fin 512, (X (ix2 r k) * Ideal.ofBits .f32 0xC0000000#32) * Y (ix2 s k))
      (Ideal.ofBits .f32 0x00000000#32) * Ideal.ofBits .f32 0xBF800000#32)

/-- Entry (r, s) as the reference computes it. -/
def entryByDifference (X Y : Rows) (r s : Fin 8192) : EReal :=
  Ideal.exp (Ideal.div (-(max (sqnorm X r + sqnorm Y s
        - Ideal.ofBits .f32 0x40000000#32 * ∑ k : Fin 512, X (ix2 r k) * Y (ix2 s k))
      (Ideal.ofBits .f32 0x00000000#32))) (Ideal.ofBits .f32 0x3F800000#32))

/-- The whole matrix, as a function of an index of the [8192, 8192] result. -/
def matrix (X Y : Rows) : (⟨2, ![8192, 8192]⟩ : Shape).Idx → EReal := fun j => entry X Y (j 0) (j 1)

/-! ## The law -/

/-- The inclusion of the reals in the extended reals carries a finite sum to the sum. -/
theorem coe_sum {ι : Type*} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- For real x_k and y_k, sum_k (x_k * (-2)) * y_k = -(2 * sum_k x_k * y_k) on the extended reals. -/
theorem scaled_dot {n : Nat} (x y : Fin n → ℝ) :
    ∑ k : Fin n, ((x k : EReal) * ((-2 : ℝ) : EReal)) * (y k : EReal)
      = -(((2 : ℝ) : EReal) * ∑ k : Fin n, (x k : EReal) * (y k : EReal)) := by
  have hl : ∑ k : Fin n, ((x k : EReal) * ((-2 : ℝ) : EReal)) * (y k : EReal)
      = ((∑ k : Fin n, x k * (-2) * y k : ℝ) : EReal) := by
    rw [coe_sum]; exact Finset.sum_congr rfl fun k _ => by rw [EReal.coe_mul, EReal.coe_mul]
  have hr : ∑ k : Fin n, (x k : EReal) * (y k : EReal) = ((∑ k : Fin n, x k * y k : ℝ) : EReal) := by
    rw [coe_sum]; exact Finset.sum_congr rfl fun k _ => by rw [EReal.coe_mul]
  rw [hl, hr, ← EReal.coe_mul, ← EReal.coe_neg, EReal.coe_eq_coe_iff, Finset.mul_sum, ← Finset.sum_neg_distrib]
  exact Finset.sum_congr rfl fun k _ => by ring

/-- When every entry of X and of Y is a real number, the reference's spelling of an entry is the kernel's. -/
theorem entryByDifference_eq (X Y : Rows) (hX : ∀ i, ∃ a : ℝ, X i = (a : EReal)) (hY : ∀ i, ∃ b : ℝ, Y i = (b : EReal))
    (r s : Fin 8192) : entryByDifference X Y r s = entry X Y r s := by
  choose x hx using hX
  choose y hy using hY
  have hdot : ∑ k : Fin 512, (X (ix2 r k) * ((-2 : ℝ) : EReal)) * Y (ix2 s k)
      = -(((2 : ℝ) : EReal) * ∑ k : Fin 512, X (ix2 r k) * Y (ix2 s k)) := by
    simp only [hx, hy]
    exact scaled_dot (fun k => x (ix2 r k)) (fun k => y (ix2 s k))
  unfold entryByDifference entry
  rw [word_neg_two, word_two, word_neg_one, word_one, hdot, ← sub_eq_add_neg,
    Ideal.div_coe (by norm_num : (1 : ℝ) ≠ 0)]
  congr 1
  rw [show ((1 / 1 : ℝ) : EReal) = 1 by norm_num, mul_one, show ((-1 : ℝ) : EReal) = -1 by norm_num, mul_neg, mul_one]

end Cert.Rbf

end
-- ==== Proof.TileValue.lean ====
/-
  One grid point of the kernel. The point (a, b) of the 8 x 8 grid holds rows 1024a .. 1024a + 1023 of the first
  argument x and of the column of its squared row norms, and the whole of the second argument y and of the row of
  its squared row norms, of which the body takes rows (resp. entries) 1024b .. 1024b + 1023. It stores one
  1024 x 1024 tile. This module says what that tile is: entry (p, q) is
      exp ( max ( n(p) + n'(q) + sum_k (x(p, k) * (-2)) * y'(q, k) , 0 ) * (-1) )
  where x is the point's block of the first argument, y' the 1024 rows of the second argument taken by the body,
  n the block of squared norms of x's rows and n' the 1024 squared norms of y's rows taken by the body.
  The change of float format before the product is the identity on the extended reals; the product of a
  [1024, 512] matrix with a [1024, 512] matrix contracted over the second axis of both is, entry by entry, the sum
  over that axis of the products of the two rows' entries.
-/
import proofs.«160540_j42958262894792_2_alg».proof.Proof.Gen.KernelIdeal.Frame
import proofs.«160540_j42958262894792_2_alg».proof.Proof.RbfSpec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.ValueIdx

namespace Cert.KernelIdeal.Tile

open Cert.KernelIdeal Cert.KernelIdeal.Gen

theorem zero_offsets : (![0, 0] : Fin 2 → Nat) = fun _ => 0 := funext fun a => by fin_cases a <;> rfl

/-! ## The stored tile is the body's arithmetic of what it loads -/

section AnyValues
variable {F : FTy → Type} [FloatOps F]

/-- The body's one store covers the output's staging buffer, so what the buffer holds afterwards is the stored
    value: the body's arithmetic of the block of the first argument, of the 1024 rows of the second argument
    starting at row 1024b, of the block of squared norms of the first, and of the 1024 squared norms of the second
    starting at entry 1024b. -/
theorem stored_tile (c : Dev nD) (i : grid0.Coords) (arg2 : Memref sig .tc .vmem S1024x512 .f32) (harg2 : arg2.IsWhole)
    (arg3 : Memref sig .tc .vmem S8192x512 .f32) (harg3 : arg3.IsWhole) (arg4 : Memref sig .tc .vmem S1024x1 .f32)
    (harg4 : arg4.IsWhole) (arg5 : Memref sig .tc .vmem S1x8192 .f32) (harg5 : arg5.IsWhole)
    (arg6 : Memref sig .tc .vmem S1024x1024 .f32) (harg6 : arg6.IsWhole)
    (x0 : Vec F S1024x512 .f32) (x1 : Vec F S8192x512 .f32) (x2 : Vec F S1024x1 .f32) (x3 : Vec F S1x8192 .f32) :
    out0_A_4 c i arg2 harg2 arg3 harg3 arg4 harg4 arg5 harg5 arg6 harg6 x0 x1 x2 x3
      = k0_pay1 (View.ld x1 (Rect.unit (s := S8192x512) (k0_off1 i) S1024x512.size (k0_off1_inb i)))
          (View.ld x3 (Rect.unit (s := S1x8192) (k0_off2 i) S1x1024.size (k0_off2_inb i))) x0 x2 := by
  unfold out0_A_4
  rw [View.read_writes_eq_canon _ _ _ (cover0_A_4 c i arg2 harg2 arg3 harg3 arg4 harg4 arg5 harg5 arg6 harg6 x0 x1 x2 x3)]
  unfold kernelRun0_A
  dsimp only
  rw [View.canon_unit_zero zero_offsets]
  simp only [View.readAt_eq_ld, harg2.read_unread, harg3.read_unread, harg4.read_unread, harg5.read_unread,
    View.ld_unit_zero (S := S1024x512) zero_offsets, View.ld_unit_zero (S := S1024x1) zero_offsets]

end AnyValues

/-! ## The three operations of the body that are not entry by entry -/

/-- A one-column matrix spread over 1024 columns reads, at (p, q), the column at p. -/
theorem column_spread (v : FVec Ideal S1024x1 .f32) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ => rfl
  | ⟨1, _⟩ => rfl

/-- A one-row matrix spread over 1024 rows reads, at (p, q), the row at q. -/
theorem row_spread (v : FVec Ideal S1x1024 .f32) (p q : Fin 1024) :
    broadcastTo S1024x1024 v broadcasts_S1x1024_S1024x1024 (ix2 p q) = v (ix2 (0 : Fin 1) q) := by
  refine broadcastTo_apply v broadcasts_S1x1024_S1024x1024 (ix2 p q) (ix2 (0 : Fin 1) q) fun ax => ?_
  match ax with
  | ⟨0, _⟩ => rfl
  | ⟨1, _⟩ => rfl

/-- On the kept axis of the left operand the operand's index is the result's row. -/
theorem left_row (j : S1024x1024.Idx) (k : dot_S1024x512_S1024x512_S1024x1024_1_1_0_0_n_n.contr.Idx) :
    (dot_S1024x512_S1024x512_S1024x1024_1_1_0_0_n_n.lhsIdx j k 0).val = (j 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- On the kept axis of the right operand the operand's index is the result's column. -/
theorem right_row (j : S1024x1024.Idx) (k : dot_S1024x512_S1024x512_S1024x1024_1_1_0_0_n_n.contr.Idx) :
    (dot_S1024x512_S1024x512_S1024x1024_1_1_0_0_n_n.rhsIdx j k 0).val = (j 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- On the contracted axis of either operand the operand's index is the contraction index. -/
theorem left_contracted (j : S1024x1024.Idx) (k : dot_S1024x512_S1024x512_S1024x1024_1_1_0_0_n_n.contr.Idx) :
    (dot_S1024x512_S1024x512_S1024x1024_1_1_0_0_n_n.lhsIdx j k 1).val = (k ⟨0, by decide⟩).val :=
  dot_S1024x512_S1024x512_S1024x1024_1_1_0_0_n_n.lhsIdx_val_of_single rfl j k
theorem right_contracted (j : S1024x1024.Idx) (k : dot_S1024x512_S1024x512_S1024x1024_1_1_0_0_n_n.contr.Idx) :
    (dot_S1024x512_S1024x512_S1024x1024_1_1_0_0_n_n.rhsIdx j k 1).val = (k ⟨0, by decide⟩).val :=
  dot_S1024x512_S1024x512_S1024x1024_1_1_0_0_n_n.rhsIdx_val_of_single rfl j k

/-- The product of two [1024, 512] matrices contracted over the second axis of both, into zero: entry (p, q) is
    the sum over k of A(p, k) * B(q, k). -/
theorem rows_times_rows {φ₁ φ₂ : FTy} (A : FVec Ideal S1024x512 φ₁) (B : FVec Ideal S1024x512 φ₂) (p q : Fin 1024) :
    matmul dot_S1024x512_S1024x512_S1024x1024_1_1_0_0_n_n none A B (constant S1024x1024 .f32 0x00000000#32) (ix2 p q)
      = ∑ k : Fin 512, A (ix2 p k) * B (ix2 q k) := by
  show FloatOps.matmul dot_S1024x512_S1024x512_S1024x1024_1_1_0_0_n_n none A B (constant S1024x1024 .f32 0x00000000#32) (ix2 p q) = _
  rw [Ideal.matmul_constant_zero_apply,
    ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q)
      ((contrEquiv1 dot_S1024x512_S1024x512_S1024x1024_1_1_0_0_n_n 512 rfl rfl).symm k) = ix2 p k :=
    funext fun a => Fin.ext (by
      match a with
      | ⟨0, _⟩ => exact left_row _ _
      | ⟨1, _⟩ => exact (left_contracted _ _).trans hk)
  have er : dot_S1024x512_S1024x512_S1024x1024_1_1_0_0_n_n.rhsIdx (ix2 p q)
      ((contrEquiv1 dot_S1024x512_S1024x512_S1024x1024_1_1_0_0_n_n 512 rfl rfl).symm k) = ix2 q k :=
    funext fun a => Fin.ext (by
      match a with
      | ⟨0, _⟩ => exact right_row _ _
      | ⟨1, _⟩ => exact (right_contracted _ _).trans hk)
  rw [el, er]

/-! ## One entry of the tile -/

/-- Entry (p, q) of the stored tile, on the extended reals. -/
theorem tile_entry (v3 : Vec Ideal S1024x512 .f32) (v5 : Vec Ideal S1x1024 .f32) (v7 : Vec Ideal S1024x512 .f32)
    (v13 : Vec Ideal S1024x1 .f32) (p q : Fin 1024) :
    k0_pay1 v3 v5 v7 v13 (ix2 p q)
      = Ideal.exp (max (v13 (ix2 p (0 : Fin 1)) + v5 (ix2 (0 : Fin 1) q)
            + ∑ k : Fin 512, (v7 (ix2 p k) * Ideal.ofBits .f32 0xC0000000#32) * v3 (ix2 q k))
          (Ideal.ofBits .f32 0x00000000#32) * Ideal.ofBits .f32 0xBF800000#32) := by
  unfold k0_pay1
  show Ideal.exp (max
      (broadcastTo S1024x1024 (shapeCast S1024x1 v13 shapeCasts_S1024x1_S1024x1) broadcasts_S1024x1_S1024x1024 (ix2 p q)
        + broadcastTo S1024x1024 (shapeCast S1x1024 v5 shapeCasts_S1x1024_S1x1024) broadcasts_S1x1024_S1024x1024 (ix2 p q)
        + matmul dot_S1024x512_S1024x512_S1024x1024_1_1_0_0_n_n none
            (truncf .bf16 (mulf v7 (broadcast S1024x512 (Scalar.ofBits (F := Ideal) .f32 0xC0000000#32))) bitsLt_bf16_f32)
            (truncf .bf16 v3 bitsLt_bf16_f32) (constant S1024x1024 .f32 0x00000000#32) (ix2 p q))
      (Ideal.ofBits .f32 0x00000000#32) * Ideal.ofBits .f32 0xBF800000#32) = _
  rw [shapeCast_self, shapeCast_self, column_spread, row_spread, rows_times_rows]
  rfl

/-- So when the block of the first argument is rows r of X (at its row p), the rows taken of the second are rows s of
    Y (at their row q), and the two norm pieces are the squared norms of those rows, entry (p, q) of the tile is
    entry (r, s) of the matrix. -/
theorem tile_entry_eq (v3 : Vec Ideal S1024x512 .f32) (v5 : Vec Ideal S1x1024 .f32) (v7 : Vec Ideal S1024x512 .f32)
    (v13 : Vec Ideal S1024x1 .f32) (X Y : Cert.Rbf.Rows) (p q : Fin 1024) (r s : Fin 8192)
    (h13 : v13 (ix2 p (0 : Fin 1)) = Cert.Rbf.sqnorm X r) (h5 : v5 (ix2 (0 : Fin 1) q) = Cert.Rbf.sqnorm Y s)
    (h7 : ∀ k : Fin 512, v7 (ix2 p k) = X (ix2 r k)) (h3 : ∀ k : Fin 512, v3 (ix2 q k) = Y (ix2 s k)) :
    k0_pay1 v3 v5 v7 v13 (ix2 p q) = Cert.Rbf.entry X Y r s := by
  rw [tile_entry, h13, h5]
  unfold Cert.Rbf.entry
  simp only [h7, h3]

end Cert.KernelIdeal.Tile

end
-- ==== Proof.HostNorms.lean ====
/-
  What the kernel's program computes before it launches the grid: the squared norms of the rows of the first
  argument, kept as a column [8192, 1], and the squared norms of the rows of the second argument, kept as a column
  and then laid out as a row [1, 8192]. Read at row r of the column, resp. at entry s of the row, each is the squared
  norm n(X, r), resp. n(Y, s), of the mathematics module: the sum over k of the squares, added to the zero the sum
  starts from. Laying a column out as a row keeps the row-major position, so entry s of the row is row s of the column.
-/
import proofs.«160540_j42958262894792_2_alg».proof.Proof.Gen.KernelIdeal.Frame
import proofs.«160540_j42958262894792_2_alg».proof.Proof.RbfSpec
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

open scoped BigOperators
open Idealize.ShloMosaic Idealize.ShloMosaic.TcCoe Idealize.SL.Sem
open Idealize.ShloMosaic.ValueIdx

namespace Cert.KernelIdeal.Norms

open Cert.KernelIdeal Cert.KernelIdeal.Gen Cert.Rbf

/-! ## The two host terms read at an index -/

/-- The sum of squares along each row, read at row r. -/
theorem row_sums_apply (x : FVec Ideal S8192x512 .f32) (r : Fin 8192) :
    Host.reduceAdd (F := Ideal) (mulf x x) (constant (F := Ideal) S_ .f32 0x00000000#32) reducesTo_S8192x512_S8192_d1 h_S_ (ix1 r)
      = sqnorm x r := by
  simp only [Host.reduceAdd, Ideal.hostReduceAdd_def]
  rw [Ideal.hostReduceAdd_single reducesTo_S8192x512_S8192_d1 (by decide)]
  unfold sqnorm
  refine congrArg₂ (· + ·) rfl (Finset.sum_congr rfl fun k _ => ?_)
  show x _ * x _ = _
  have e : (Shape.Reduces.lift (s := S8192x512) (t := S8192) (a := 1) (by decide) (ix1 r) k) = ix2 r k :=
    funext fun a => Fin.ext (by match a with | ⟨0, _⟩ => rfl | ⟨1, _⟩ => rfl)
  rw [e]
  rfl

/-- The column of squared norms, read at (r, 0). -/
theorem column_apply (x : FVec Ideal S8192x512 .f32) (r : Fin 8192) :
    broadcastInDim S8192x1 ![0] bcast_S8192_S8192x1_0
        (Host.reduceAdd (F := Ideal) (mulf x x) (constant (F := Ideal) S_ .f32 0x00000000#32) reducesTo_S8192x512_S8192_d1 h_S_)
        (ix2 r (0 : Fin 1))
      = sqnorm x r := by
  rw [broadcastInDim_apply _ bcast_S8192_S8192x1_0 _ (ix2 r (0 : Fin 1)) (ix1 r) (fun a => match a with
    | ⟨0, _⟩ => by show r.val = if (8192 : Nat) = 1 then 0 else r.val; rw [if_neg (by decide)])]
  exact row_sums_apply x r

/-- The row of squared norms (the column laid out as a row), read at (0, s). -/
theorem row_apply (x : FVec Ideal S8192x512 .f32) (s : Fin 8192) :
    shapeCast S1x8192 (broadcastInDim S8192x1 ![0] bcast_S8192_S8192x1_0
        (Host.reduceAdd (F := Ideal) (mulf x x) (constant (F := Ideal) S_ .f32 0x00000000#32) reducesTo_S8192x512_S8192_d1 h_S_))
        shapeCasts_S8192x1_S1x8192 (ix2 (0 : Fin 1) s)
      = sqnorm x s := by
  rw [shapeCast_apply _ shapeCasts_S8192x1_S1x8192 (ix2 (0 : Fin 1) s) (ix2 s (0 : Fin 1)) (by
    rw [Shape.rowMajor_val_two, Shape.rowMajor_val_two]
    show s.val * 1 + 0 = 0 * 8192 + s.val
    omega)]
  exact column_apply x s

/-! ## The two buffers as the grid finds them -/

variable (m : (ℓ : Loc nD τ sig) → Buf (Elt Ideal) ℓ)

/-- The buffer the third window stages holds the column of squared norms of the first argument. -/
theorem column_buffer (c : Dev nD) (r : Fin 8192) :
    (V m c main_v2 : S8192x1.Idx → EReal) (ix2 r (0 : Fin 1)) = sqnorm (m ((c : Thread nD τ).loc main_arg0)) r := by
  have e : (V m c main_v2 : S8192x1.Idx → EReal)
      = broadcastInDim S8192x1 ![0] bcast_S8192_S8192x1_0
          (Host.reduceAdd (F := Ideal) (mulf (m ((c : Thread nD τ).loc main_arg0)) (m ((c : Thread nD τ).loc main_arg0)))
            (constant (F := Ideal) S_ .f32 0x00000000#32) reducesTo_S8192x512_S8192_d1 h_S_) := by
    dsimp only [Gen.V, Gen.hostOps0]; after_results
  rw [e]
  exact column_apply _ r

/-- The buffer the fourth window stages holds the row of squared norms of the second argument. -/
theorem row_buffer (c : Dev nD) (s : Fin 8192) :
    (V m c main_v6 : S1x8192.Idx → EReal) (ix2 (0 : Fin 1) s) = sqnorm (m ((c : Thread nD τ).loc main_arg1)) s := by
  have e : (V m c main_v6 : S1x8192.Idx → EReal)
      = shapeCast S1x8192 (broadcastInDim S8192x1 ![0] bcast_S8192_S8192x1_0
          (Host.reduceAdd (F := Ideal) (mulf (m ((c : Thread nD τ).loc main_arg1)) (m ((c : Thread nD τ).loc main_arg1)))
            (constant (F := Ideal) S_ .f32 0x00000000#32) reducesTo_S8192x512_S8192_d1 h_S_)) shapeCasts_S8192x1_S1x8192 := by
    dsimp only [Gen.V, Gen.hostOps0]; after_results; rfl
  rw [e]
  exact row_apply _ s

end Cert.KernelIdeal.Norms

end
-- ==== Proof.WholeMatrix.lean ====
/-
  From tiles to the whole matrix. Grid point t = (a, b) writes back the tile of rows 1024a .. 1024a + 1023 and columns
  1024b .. 1024b + 1023 of the [8192, 8192] result. Row p of the point's block of the first argument (and of its
  squared norms) is row 1024a + p of the argument; the second argument and the row of its squared norms are staged
  whole, and the body takes from them rows (entries) 1024b .. 1024b + 1023, so row q of what it takes is row 1024b + q.
  Hence entry (p, q) of the tile is entry (1024a + p, 1024b + q) of the matrix: the tile is the matrix read through
  the point's block. The 64 tiles cover the result (the tile holding (i, j) is the one at (i / 1024, j / 1024)), so
  after the run the result array is the matrix.
-/
import proofs.«160540_j42958262894792_2_alg».proof.Proof.Gen.KernelIdeal.Value
import proofs.«160540_j42958262894792_2_alg».proof.Proof.TileValue
import proofs.«160540_j42958262894792_2_alg».proof.Proof.HostNorms
import proofs.«160540_j42958262894792_2_alg».proof.Proof.RbfSpec
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.ValueIdx
open Idealize.ShloMosaic.Pipeline (Dat)

namespace Cert.KernelIdeal.Whole

open Cert.KernelIdeal Cert.KernelIdeal.Gen Cert.Rbf

variable (m : (ℓ : Loc nD τ sig) → Buf (Elt Ideal) ℓ) (ρ : Dev nD → PrngReg)

/-- The matrix of the two arguments as launched, on core c. -/
abbrev result (c : Dev nD) : S8192x8192.Idx → EReal :=
  matrix (m ((c : Thread nD τ).loc main_arg0)) (m ((c : Thread nD τ).loc main_arg1))

/-! ## The block indices, decided over the 64 grid points -/

/-- The first argument's block and its norms' block move with the output's row block; the second argument and its
    norms' row stay at block 0; the body's row offset is the output's column block; both block indices are below 8. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = 0
    ∧ (grid0.coords t (1 : Fin 2)).val = win0_4.index t (1 : Fin 2)
    ∧ win0_4.index t (0 : Fin 2) ≤ 7 ∧ win0_4.index t (1 : Fin 2) ≤ 7 :=
  (by decide +kernel : ∀ t : Fin grid0.N, _)

/-- Every pair of block indices below 8 is some point's. -/
theorem block_onto : ∀ (a b : Fin 8), ∃ t : Fin cfg0.N, win0_4.index t = ![a.val, b.val] :=
  (by decide +kernel : ∀ (a b : Fin 8), ∃ t : Fin grid0.N, win0_4.index t = ![a.val, b.val])

/-- The body's row offset into the second argument, and its entry offset into the row of norms. -/
theorem rows_offset (t : Fin cfg0.N) : k0_off1 (grid0.coords t) (0 : Fin 2) = 1024 * (grid0.coords t (1 : Fin 2)).val
    ∧ k0_off1 (grid0.coords t) (1 : Fin 2) = 0 := by
  rw [k0_off1_eq]; exact ⟨rfl, rfl⟩
theorem entries_offset (t : Fin cfg0.N) : k0_off2 (grid0.coords t) (0 : Fin 2) = 0
    ∧ k0_off2 (grid0.coords t) (1 : Fin 2) = 1024 * (grid0.coords t (1 : Fin 2)).val := by
  rw [k0_off2_eq]; exact ⟨rfl, rfl⟩

/-! ## What the body finds in its four inputs at point t -/

/-- Row p of the first argument's block is row 1024a + p of the argument. -/
theorem first_block (c : Dev nD) (t : Fin cfg0.N) (p : Fin 1024) (k : Fin 512) (r : Fin 8192)
    (hr : r.val = win0_4.index t (0 : Fin 2) * 1024 + p.val) :
    (iblk m c 0 t : Vec Ideal S1024x512 .f32) (ix2 p k) = m ((c : Thread nD τ).loc main_arg0) (ix2 r k) := by
  obtain ⟨e0, e1, -⟩ := block_indices t
  unfold iblk
  rw [View.read_apply]
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Row q of the rows the body takes of the second argument is row 1024b + q of the argument. -/
theorem second_rows (c : Dev nD) (t : Fin cfg0.N) (q : Fin 1024) (k : Fin 512) (s : Fin 8192)
    (hs : s.val = win0_4.index t (1 : Fin 2) * 1024 + q.val) :
    View.ld (iblk m c 1 t : Vec Ideal S8192x512 .f32)
        (Rect.unit (s := S8192x512) (k0_off1 (grid0.coords t)) S1024x512.size (k0_off1_inb (grid0.coords t))) (ix2 q k)
      = m ((c : Thread nD τ).loc main_arg1) (ix2 s k) := by
  obtain ⟨-, -, e2, e3, -, -, -, -, e8, -⟩ := block_indices t
  obtain ⟨o0, o1⟩ := rows_offset t
  show (iblk m c 1 t : Vec Ideal S8192x512 .f32)
    ((Rect.unit (s := S8192x512) (k0_off1 (grid0.coords t)) S1024x512.size (k0_off1_inb (grid0.coords t))).idx (ix2 q k)) = _
  unfold iblk
  rw [View.read_apply]
  show V m c main_arg1 (((cfg0.win 1).blk t).view.emb
    ((Rect.unit (s := S8192x512) (k0_off1 (grid0.coords t)) S1024x512.size (k0_off1_inb (grid0.coords t))).idx (ix2 q k))) = _
  rw [V_main_arg1]
  refine congrArg (m ((c : Thread nD τ).loc main_arg1)) (funext fun a => Fin.ext ?_)
  match a with
  | ⟨0, _⟩ =>
    show win0_1.index t (0 : Fin 2) * 8192 + 1 * (k0_off1 (grid0.coords t) (0 : Fin 2) + 1 * q.val) = s.val
    omega
  | ⟨1, _⟩ =>
    show win0_1.index t (1 : Fin 2) * 512 + 1 * (k0_off1 (grid0.coords t) (1 : Fin 2) + 1 * k.val) = k.val
    omega

/-- Row p of the block of the first argument's squared norms is the squared norm of row 1024a + p. -/
theorem first_norms (c : Dev nD) (t : Fin cfg0.N) (p : Fin 1024) (r : Fin 8192)
    (hr : r.val = win0_4.index t (0 : Fin 2) * 1024 + p.val) :
    (iblk m c 2 t : Vec Ideal S1024x1 .f32) (ix2 p (0 : Fin 1)) = sqnorm (m ((c : Thread nD τ).loc main_arg0)) r := by
  obtain ⟨-, -, -, -, e4, e5, -⟩ := block_indices t
  unfold iblk
  rw [View.read_apply]
  show (V m c main_v2 : S8192x1.Idx → EReal) (((cfg0.win 2).blk t).view.emb (ix2 p (0 : Fin 1))) = _
  have e : ((cfg0.win 2).blk t).view.emb (ix2 p (0 : Fin 1)) = (ix2 r (0 : Fin 1) : S8192x1.Idx) :=
    funext fun a => Fin.ext (by
      match a with
      | ⟨0, _⟩ => show win0_2.index t (0 : Fin 2) * 1024 + 1 * p.val = r.val; omega
      | ⟨1, _⟩ => show win0_2.index t (1 : Fin 2) * 1 + 1 * 0 = 0; omega)
  rw [e]
  exact Norms.column_buffer m c r

/-- Entry q of the entries the body takes of the second argument's squared norms is the squared norm of row 1024b + q. -/
theorem second_norms (c : Dev nD) (t : Fin cfg0.N) (q : Fin 1024) (s : Fin 8192)
    (hs : s.val = win0_4.index t (1 : Fin 2) * 1024 + q.val) :
    View.ld (iblk m c 3 t : Vec Ideal S1x8192 .f32)
        (Rect.unit (s := S1x8192) (k0_off2 (grid0.coords t)) S1x1024.size (k0_off2_inb (grid0.coords t))) (ix2 (0 : Fin 1) q)
      = sqnorm (m ((c : Thread nD τ).loc main_arg1)) s := by
  obtain ⟨-, -, -, -, -, -, e6, e7, e8, -⟩ := block_indices t
  obtain ⟨o0, o1⟩ := entries_offset t
  show (iblk m c 3 t : Vec Ideal S1x8192 .f32)
    ((Rect.unit (s := S1x8192) (k0_off2 (grid0.coords t)) S1x1024.size (k0_off2_inb (grid0.coords t))).idx (ix2 (0 : Fin 1) q)) = _
  unfold iblk
  rw [View.read_apply]
  show (V m c main_v6 : S1x8192.Idx → EReal) (((cfg0.win 3).blk t).view.emb
    ((Rect.unit (s := S1x8192) (k0_off2 (grid0.coords t)) S1x1024.size (k0_off2_inb (grid0.coords t))).idx (ix2 (0 : Fin 1) q))) = _
  have e : ((cfg0.win 3).blk t).view.emb
      ((Rect.unit (s := S1x8192) (k0_off2 (grid0.coords t)) S1x1024.size (k0_off2_inb (grid0.coords t))).idx (ix2 (0 : Fin 1) q))
        = (ix2 (0 : Fin 1) s : S1x8192.Idx) :=
    funext fun a => Fin.ext (by
      match a with
      | ⟨0, _⟩ => show win0_3.index t (0 : Fin 2) * 1 + 1 * (k0_off2 (grid0.coords t) (0 : Fin 2) + 1 * 0) = 0; omega
      | ⟨1, _⟩ =>
        show win0_3.index t (1 : Fin 2) * 8192 + 1 * (k0_off2 (grid0.coords t) (1 : Fin 2) + 1 * q.val) = s.val
        omega)
  rw [e]
  exact Norms.row_buffer m c s

/-! ## What point t writes back -/

/-- The tile point t writes back is the matrix read through the point's block of the result. -/
theorem written_back (c : Dev nD) (t : Fin cfg0.N) :
    (dats m 0 c).flushed 4 t = ((cfg0.win 4).blk t).view.read (Elt Ideal) (result m c) := by
  rw [Value.flushed4_A, Tile.stored_tile]
  funext j
  obtain ⟨p, q, rfl⟩ : ∃ (p q : Fin 1024), j = (ix2 p q : S1024x1024.Idx) := ⟨j 0, j 1, eq_ix2 j⟩
  show k0_pay1
      (View.ld (iblk m c 1 t : Vec Ideal S8192x512 .f32)
        (Rect.unit (s := S8192x512) (k0_off1 (grid0.coords t)) S1024x512.size (k0_off1_inb (grid0.coords t))))
      (View.ld (iblk m c 3 t : Vec Ideal S1x8192 .f32)
        (Rect.unit (s := S1x8192) (k0_off2 (grid0.coords t)) S1x1024.size (k0_off2_inb (grid0.coords t))))
      (iblk m c 0 t) (iblk m c 2 t) (ix2 p q)
    = entry (m ((c : Thread nD τ).loc main_arg0)) (m ((c : Thread nD τ).loc main_arg1))
        ((((cfg0.win 4).blk t).view.emb (ix2 p q)) 0) ((((cfg0.win 4).blk t).view.emb (ix2 p q)) 1)
  have hr : ((((cfg0.win 4).blk t).view.emb (ix2 p q)) 0).val = win0_4.index t (0 : Fin 2) * 1024 + p.val := by
    show win0_4.index t (0 : Fin 2) * 1024 + 1 * p.val = _; omega
  have hs : ((((cfg0.win 4).blk t).view.emb (ix2 p q)) 1).val = win0_4.index t (1 : Fin 2) * 1024 + q.val := by
    show win0_4.index t (1 : Fin 2) * 1024 + 1 * q.val = _; omega
  exact Tile.tile_entry_eq _ _ _ _ _ _ p q _ _ (first_norms m c t p _ hr) (second_norms m c t q _ hs)
    (fun k => first_block m c t p k _ hr) (fun k => second_rows m c t q k _ hs)

/-! ## The tiles cover the result -/

/-- An index of the result is in point t's block iff each coordinate is in the block's range. -/
theorem mem_block (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v7).slice (win0_4.rect t)).set ↔ _
  rw [View.set_slice_whole, Rect.mem_set_unit]
  exact Iff.rfl

/-- Every index of the result is in the block of the point at (i / 1024, j / 1024), which writes back. -/
theorem covered (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-! ## The result array, and the run -/

/-- After the run the result array is the matrix of the arguments as launched. -/
theorem final (c : Dev nD) : (dats m 0 c).arrAt 4 cfg0.N = result m c :=
  (dats m 0 c).arrAt_eq_of_cover 4 (result m c) (fun t _ => written_back m c t) covered

/-- Every weakly fair execution of the kernel's program terminates with the result array at the matrix of the
    arguments and the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceEntry.lean ====
/-
  The reference program, entry by entry. Its last stage exp((-d) / 1), with
  d = max(n(X, r) + n(Y, s) - 2 * sum_k X(r, k) * Y(s, k), 0), read at (r, s) through the stages before it: the two
  squared-norm sums are read at row r of X and at row s of Y (the first is kept as a column and spread over the
  columns, the second laid out as a row and spread over the rows), the matrix product at (r, s) is the sum over k of
  X(r, k) * Y(s, k), and the scalars 2, 0 and 1 are spread over the whole matrix.
-/
import proofs.«160540_j42958262894792_2_alg».proof.Proof.Gen.ReferenceIdeal.Read
import proofs.«160540_j42958262894792_2_alg».proof.Proof.RbfSpec

noncomputable section

open scoped BigOperators

namespace Cert.ReferenceIdeal.Entry

open Cert.ReferenceIdeal Cert.ReferenceIdeal.Gen Cert.ReferenceIdeal.Read
open Idealize.ShloMosaic Idealize.ShloMosaic.ValueIdx Cert.Rbf

/-- Entry (r, s) of the reference's result is the reference's spelling of the entry. -/
theorem result_entry (x0 x1 : (⟨S8192x512, .f32⟩ : BufTy).Contents (Elt Ideal)) (r s : Fin 8192) :
    val_main_v18 (F := Ideal) x0 x1 (ix2 r s) = entryByDifference x0 x1 r s := by
  have e1 : ∀ k : Fin 512, idx_main_v1 (idx_main_v2 (idx_main_v7 (ix2 r s))) k = ix2 r k := fun k =>
    funext fun a => Fin.ext (by match a with | ⟨0, _⟩ => rfl | ⟨1, _⟩ => rfl)
  have e4 : ∀ k : Fin 512, idx_main_v4 (idx_main_v6 (idx_main_v8 (ix2 r s))) k = ix2 s k := fun k =>
    funext fun a => Fin.ext (by match a with | ⟨0, _⟩ => rfl | ⟨1, _⟩ => rfl)
  have el : ∀ k : Fin 512, lidx_main_v5 (ix2 r s) k = ix2 r k := fun k =>
    funext fun a => Fin.ext (by match a with | ⟨0, _⟩ => rfl | ⟨1, _⟩ => rfl)
  have er : ∀ k : Fin 512, ridx_main_v5 (ix2 r s) k = ix2 s k := fun k =>
    funext fun a => Fin.ext (by match a with | ⟨0, _⟩ => rfl | ⟨1, _⟩ => rfl)
  rw [val_main_v18_apply, val_main_v17_apply, val_main_v16_apply, val_main_cst_3_apply, val_main_v15_apply,
    val_main_v14_apply, val_main_v13_apply, val_main_cst_2_apply, val_main_v12_apply, val_main_v11_apply,
    val_main_v10_apply, val_main_cst_1_apply, val_main_v5_apply, val_main_v9_apply, val_main_v8_apply,
    val_main_v6_apply, val_main_v4_apply, val_main_v7_apply, val_main_v2_apply, val_main_v1_apply]
  unfold entryByDifference sqnorm
  simp only [val_main_v0_apply, val_main_v3_apply, val_main_cst_apply, val_main_cst_0_apply, e1, e4, el, er,
    Ideal.hostUnary_exp_def, Ideal.hostDivf_def, Ideal.hostNegf_def, Ideal.negf_def, Ideal.maximumf_def,
    Ideal.subf_def, Ideal.addf_def, Ideal.mulf_def, Ideal.ofBits_def]

/-- So, when every entry of the two arguments is a real number, the reference's result is the matrix. -/
theorem result_eq (x0 x1 : (⟨S8192x512, .f32⟩ : BufTy).Contents (Elt Ideal))
    (h0 : ∀ i, ∃ a : ℝ, x0 i = (a : EReal)) (h1 : ∀ i, ∃ b : ℝ, x1 i = (b : EReal)) :
    val_main_v18 (F := Ideal) x0 x1 = matrix x0 x1 := by
  funext j
  obtain ⟨r, s, rfl⟩ : ∃ (r s : Fin 8192), j = ix2 r s := ⟨j 0, j 1, eq_ix2 j⟩
  rw [result_entry]
  exact entryByDifference_eq x0 x1 h0 h1 r s

end Cert.ReferenceIdeal.Entry

end
-- ==== Proof.RealEntries.lean ====
/-
  The precondition, read back. It says that, of each of the two arguments, every entry has absolute value below
  +inf: the conjunction of two "for all entries" tests, each an and-reduction of the entry-by-entry comparison
  |x| < +inf. An extended real with |x| < +inf is neither +inf nor -inf (the absolute value of either is +inf), so
  it is a real number.
-/
import proofs.«160540_j42958262894792_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Pre_finite_inputs.Reals

open Cert.Pre_finite_inputs Idealize.ShloMosaic

/-- A shape of rank zero has one index. -/
instance : Subsingleton S_.Idx := ⟨fun a b => funext fun d => d.elim0⟩

/-- The word 0x7F800000 is +inf. -/
theorem word_inf : Ideal.ofBits .f32 0x7F800000#32 = ⊤ := by
  simp [Ideal.ofBits, Ideal.ieee]

/-- An extended real whose absolute value compares below +inf is a real number. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) : ∃ a : ℝ, x = (a : EReal) := by
  have h' : Ideal.cmp .olt (max x (-x)) (Ideal.ofBits .f32 0x7F800000#32) = 1#1 := h
  rw [word_inf] at h'
  induction x using EReal.rec with
  | bot => exact absurd h' (by simp [Ideal.cmp])
  | top => exact absurd h' (by simp [Ideal.cmp])
  | coe a => exact ⟨a, rfl⟩

variable [Facts]

/-- Under the precondition every entry of both arguments is a real number. -/
theorem entries_real (x0 x1 : FVec Ideal S8192x512 .f32) (h : fn (F := Ideal) x0 x1 = fun _ => 1#1) :
    (∀ i, ∃ a : ℝ, x0 i = (a : EReal)) ∧ (∀ i, ∃ b : ℝ, x1 i = (b : EReal)) := by
  have h0 := congrFun h ValueIdx.ix0
  dsimp only [fn] at h0
  obtain ⟨ha, hb⟩ := IntOp.andi_eq_one.1 h0
  exact ⟨fun i => real_of_abs_lt_inf (x0 i) (Host.reduce_andi_all _ _ _ _ _ ha i),
    fun i => real_of_abs_lt_inf (x1 i) (Host.reduce_andi_all _ _ _ _ _ hb i)⟩

end Cert.Pre_finite_inputs.Reals

end
-- ==== Proof.lean ====
/-
  The radial-basis-function matrix K(r, s) = exp(-max(|x_r|^2 + |y_s|^2 - 2 <x_r, y_s>, 0)) of two arrays of 8192
  vectors of 512 entries, computed by a tiled kernel and by a plain reference, are the same extended reals whenever
  every input entry is finite.

  Both programs first take the squared norms of the rows, by the same sum. The reference then forms the whole
  product matrix <x_r, y_s>, doubles it, subtracts it from |x_r|^2 + |y_s|^2, clamps at zero, negates, divides by 1
  and exponentiates. The kernel cuts the result into 64 tiles of 1024 x 1024; for each it scales the rows of x by
  -2 BEFORE the product, so that the doubled product arrives already negated and is ADDED, clamps at zero, and
  multiplies by -1 before exponentiating. The narrowing of the product's operands to a shorter float format changes
  nothing on the extended reals. So the two differ by one law only: sum_k (x_k * (-2)) * y_k = -(2 * sum_k x_k * y_k).
  On the extended reals a factor cannot in general be moved across a sum (a sum may meet +inf and -inf), and this is
  where finiteness of the inputs is used: of real numbers the law is the distributive law. Negating by a product with
  -1, subtracting as adding the negation, and dividing by 1 hold for every extended real.

  The modules: RbfSpec (the matrix in both spellings and the law), ReferenceEntry (the reference's result entry by
  entry), TileValue (one tile of the kernel, entry by entry), HostNorms (the squared norms the kernel's program
  computes before the grid), WholeMatrix (the 64 tiles are the matrix), RealEntries (the precondition says every
  entry is a real number). Each program's frame is its generated run; the kernel's idealization rewrote nothing.
-/
import proofs.«160540_j42958262894792_2_alg».proof.Defs
import proofs.«160540_j42958262894792_2_alg».proof.Proof.Gen.Kernel
import proofs.«160540_j42958262894792_2_alg».proof.Proof.Gen.Kernel.Frame
import proofs.«160540_j42958262894792_2_alg».proof.Proof.Gen.KernelIdeal
import proofs.«160540_j42958262894792_2_alg».proof.Proof.Gen.KernelIdeal.Frame
import proofs.«160540_j42958262894792_2_alg».proof.Proof.Gen.KernelIdeal.Value
import proofs.«160540_j42958262894792_2_alg».proof.Proof.Gen.ReferenceIdeal
import proofs.«160540_j42958262894792_2_alg».proof.Proof.Gen.ReferenceIdeal.Run
import proofs.«160540_j42958262894792_2_alg».proof.Proof.Gen.ReferenceIdeal.Read
import proofs.«160540_j42958262894792_2_alg».proof.Proof.Gen.Pre_finite_inputs
import proofs.«160540_j42958262894792_2_alg».proof.Proof.WholeMatrix
import proofs.«160540_j42958262894792_2_alg».proof.Proof.ReferenceEntry
import proofs.«160540_j42958262894792_2_alg».proof.Proof.RealEntries
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel on the extended reals rewrote none of its operations: nothing to preserve. -/
theorem preserves : Cert.preserves_Kernel_KernelIdeal := trivial

/-- From memories that agree on the two arguments, with every entry finite, the kernel's result array ends at the
    matrix of the arguments (the 64 tiles), and the reference's at the same matrix in its own spelling, which is the
    kernel's once every entry is a real number. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1⟩ := Cert.Pre_finite_inputs.Reals.entries_real _ _ (hpre c)
  rw [Cert.ReferenceIdeal.Read.val_main_v18_eq, (hagree c).1, (hagree c).2]
  exact Cert.ReferenceIdeal.Entry.result_eq _ _ h0 h1

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
